-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S640000 : Shape := ⟨1, ![640000]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : FVec F S100000x128 .f32) (main_arg2 : IVec S640000 32) (main_arg3 : IVec S640000 32) (main_arg4 : FVec F S256x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S640000 : Shape := ⟨1, ![640000]⟩
abbrev S256x128 : Shape := ⟨2, ![256, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S128x128 : Shape := ⟨2, ![128, 128]⟩
abbrev S1x128 : Shape := ⟨2, ![1, 128]⟩
abbrev S5000x128 : Shape := ⟨2, ![5000, 128]⟩

abbrev nBuf : Space → Nat
  | .hbm => 38
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S640000, .i32⟩
  | .hbm, ⟨3, _⟩ => ⟨S640000, .i32⟩
  | .hbm, ⟨4, _⟩ => ⟨S256x128, .f32⟩
  | .hbm, ⟨5, _⟩ => ⟨S128, .f32⟩
  | .hbm, ⟨6, _⟩ => ⟨S_, .i32⟩
  | .hbm, ⟨7, _⟩ => ⟨S640000, .i32⟩
  | .hbm, ⟨8, _⟩ => ⟨S640000, .i1⟩
  | .hbm, ⟨9, _⟩ => ⟨S_, .i32⟩
  | .hbm, ⟨10, _⟩ => ⟨S640000, .i32⟩
  | .hbm, ⟨11, _⟩ => ⟨S640000, .i32⟩
  | .hbm, ⟨12, _⟩ => ⟨S640000, .i32⟩
  | .hbm, ⟨13, _⟩ => ⟨S640000x1, .i32⟩
  | .hbm, ⟨14, _⟩ => ⟨S640000x128, .f32⟩
  | .hbm, ⟨15, _⟩ => ⟨S_, .f32⟩
  | .hbm, ⟨16, _⟩ => ⟨S100000x128, .f32⟩
  | .hbm, ⟨17, _⟩ => ⟨S640000x1, .i32⟩
  | .hbm, ⟨18, _⟩ => ⟨S100000x128, .f32⟩
  | .hbm, ⟨19, _⟩ => ⟨S_, .f32⟩
  | .hbm, ⟨20, _⟩ => ⟨S640000, .f32⟩
  | .hbm, ⟨21, _⟩ => ⟨S_, .f32⟩
  | .hbm, ⟨22, _⟩ => ⟨S100000, .f32⟩
  | .hbm, ⟨23, _⟩ => ⟨S640000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S128x128, .f32⟩
  | .hbm, ⟨35, _⟩ => ⟨S128x128, .f32⟩
  | .hbm, ⟨36, _⟩ => ⟨S1x128, .f32⟩
  | .hbm, ⟨37, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S256x128_S128x128_0_0 : S256x128.Slices ![0, 0] S128x128
  slices_S256x128_S128x128_128_0 : S256x128.Slices ![128, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S640000 : Shape := ⟨1, ![640000]⟩
abbrev S256x128 : Shape := ⟨2, ![256, 128]⟩
abbrev S128 : Shape := ⟨1, ![128]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S100000x256 : Shape := ⟨2, ![100000, 256]⟩
abbrev S1x128 : Shape := ⟨2, ![1, 128]⟩

abbrev nBuf : Space → Nat
  | .hbm => 36
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S640000, .i32⟩
  | .hbm, ⟨3, _⟩ => ⟨S640000, .i32⟩
  | .hbm, ⟨4, _⟩ => ⟨S256x128, .f32⟩
  | .hbm, ⟨5, _⟩ => ⟨S128, .f32⟩
  | .hbm, ⟨6, _⟩ => ⟨S_, .i32⟩
  | .hbm, ⟨7, _⟩ => ⟨S640000, .i32⟩
  | .hbm, ⟨8, _⟩ => ⟨S640000, .i1⟩
  | .hbm, ⟨9, _⟩ => ⟨S_, .i32⟩
  | .hbm, ⟨10, _⟩ => ⟨S640000, .i32⟩
  | .hbm, ⟨11, _⟩ => ⟨S640000, .i32⟩
  | .hbm, ⟨12, _⟩ => ⟨S640000, .i32⟩
  | .hbm, ⟨13, _⟩ => ⟨S640000x1, .i32⟩
  | .hbm, ⟨14, _⟩ => ⟨S640000x128, .f32⟩
  | .hbm, ⟨15, _⟩ => ⟨S_, .f32⟩
  | .hbm, ⟨16, _⟩ => ⟨S100000x128, .f32⟩
  | .hbm, ⟨17, _⟩ => ⟨S640000x1, .i32⟩
  | .hbm, ⟨18, _⟩ => ⟨S100000x128, .f32⟩
  | .hbm, ⟨19, _⟩ => ⟨S_, .f32⟩
  | .hbm, ⟨20, _⟩ => ⟨S640000, .f32⟩
  | .hbm, ⟨21, _⟩ => ⟨S_, .f32⟩
  | .hbm, ⟨22, _⟩ => ⟨S100000, .f32⟩
  | .hbm, ⟨23, _⟩ => ⟨S640000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S100000x256, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x256_S256x128_S100000x128_1_0_0_1_n_n_wf : DotDims.WF S100000x256 S256x128 S100000x128 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.SageSpec.lean ====
/-
  One graph-convolution layer with mean aggregation, as ONE function of its arrays, and the algebra that joins the
  two programs' spellings of it.

  For a destination row `r` and an output column `q` the layer's value is
      ( ∑_k A[r,k] · W[k,q]  +  ∑_k (S[r,k] / max(deg[r], 1)) · W[128+k,q] )  +  b[q]
  where `A` holds the destination features, `S` the summed messages of the row's incoming edges, `deg` their
  number, `W` the stacked [256,128] weights and `b` the bias. `S` and `deg` are whatever the gather and the two
  scatter-adds produce: both programs compute them by the same operations, so nothing about them is needed here.

  One program multiplies `S[r,k]` by the reciprocal `1 / max(deg[r], 1)` and takes two products with the two
  halves of `W`; the other divides, joins `A` and the quotient side by side and takes one product with `W`. On the
  extended reals the quotient `x / y` is `x · y⁻¹` for every `y ≠ 0`, so `x · (1 / y) = x · (1 · y⁻¹) = x / y` with
  no finiteness asked of `x` or `y`; and `max(deg, 1) ≥ 1 > 0` is never zero. A sum over 256 terms is the sum of
  its first 128 and its last 128 terms, which needs only that addition is commutative and associative.
-/
import Idealize.ShloMosaic.PureOps.Ideal
import Idealize.ShloMosaic.Lib.ValueIdx

noncomputable section

namespace Cert.Sage

open Idealize.ShloMosaic Idealize.ShloMosaic.ValueIdx

/-- A matrix of extended reals with literal extents. -/
abbrev Mat (r c : Nat) : Type := (⟨2, ![r, c]⟩ : Shape).Idx → EReal
/-- A vector of extended reals with a literal extent. -/
abbrev Vct (n : Nat) : Type := (⟨1, ![n]⟩ : Shape).Idx → EReal

/-- Row `k` of the weights' upper half, as a row of the stacked matrix. -/
abbrev lo (k : Fin 128) : Fin 256 := ⟨k.val, by omega⟩
/-- Row `k` of the weights' lower half, as a row of the stacked matrix. -/
abbrev hi (k : Fin 128) : Fin 256 := ⟨128 + k.val, by omega⟩

/-- The single-precision word of `1.0`, as both programs spell it. -/
abbrev one32 : EReal := Ideal.ofBits .f32 0x3F800000#32

/-- That word denotes the real number one. -/
theorem one32_eq : one32 = 1 := by
  simp [Ideal.ofBits, Ideal.ieee, -EReal.coe_mul]; norm_num

/-- The layer's value at destination row `r` and output column `q`. -/
def outAt (A S : Mat 100000 128) (deg : Vct 100000) (W : Mat 256 128) (b : Vct 128) (r : Fin 100000) (q : Fin 128) : EReal :=
  (∑ k : Fin 128, A (ix2 r k) * W (ix2 (lo k) q)
    + ∑ k : Fin 128, Ideal.div (S (ix2 r k)) (max (deg (ix1 r)) one32) * W (ix2 (hi k) q)) + b (ix1 q)

/-- The layer's result array. -/
def out (A S : Mat 100000 128) (deg : Vct 100000) (W : Mat 256 128) (b : Vct 128) : Mat 100000 128 :=
  fun i => outAt A S deg W b (i 0) (i 1)

theorem out_ix2 (A S : Mat 100000 128) (deg : Vct 100000) (W : Mat 256 128) (b : Vct 128) (r : Fin 100000) (q : Fin 128) :
    out A S deg W b (ix2 r q) = outAt A S deg W b r q := rfl

/-! ## The algebra -/

theorem zero_lt_one' : (0 : EReal) < 1 := by exact_mod_cast (zero_lt_one : (0 : ℝ) < 1)

/-- A maximum with one is at least one, so it is not zero. -/
theorem max_one_ne_zero (x : EReal) : max x 1 ≠ 0 :=
  ne_of_gt (lt_of_lt_of_le zero_lt_one' (le_max_right x 1))

/-- Multiplying by the reciprocal of a nonzero extended real is dividing by it: both are the product with its inverse. -/
theorem mul_recip (x y : EReal) (hy : y ≠ 0) : x * Ideal.div 1 y = Ideal.div x y := by
  unfold Ideal.div
  rw [if_neg hy, if_neg hy, one_mul]

/-- The same with the one and the clamp spelt as the programs spell them. -/
theorem mul_recip_clamped (x dg : EReal) : x * Ideal.div one32 (max dg one32) = Ideal.div x (max dg one32) := by
  rw [one32_eq]
  exact mul_recip x _ (max_one_ne_zero dg)

/-- A sum over the 256 rows of the stacked weights is the sum over its upper half plus the sum over its lower half. -/
theorem sum_halves (f : Fin 256 → EReal) : ∑ k : Fin 256, f k = ∑ k : Fin 128, f (lo k) + ∑ k : Fin 128, f (hi k) :=
  Fin.sum_univ_add (a := 128) (b := 128) f

/-- The spelling with the reciprocal and two half products is the layer's value. -/
theorem recip_form (A S : Mat 100000 128) (deg : Vct 100000) (W : Mat 256 128) (b : Vct 128) (r : Fin 100000) (q : Fin 128) :
    (∑ k : Fin 128, A (ix2 r k) * W (ix2 (lo k) q)
      + ∑ k : Fin 128, (S (ix2 r k) * Ideal.div one32 (max (deg (ix1 r)) one32)) * W (ix2 (hi k) q)) + b (ix1 q)
    = outAt A S deg W b r q := by
  unfold outAt
  simp only [mul_recip_clamped]

/-- The spelling with one product over the joined matrix `C` — `A` in its first 128 columns, the quotient in its
    last 128 — is the layer's value. -/
theorem joined_form (A S : Mat 100000 128) (deg : Vct 100000) (W : Mat 256 128) (b : Vct 128) (r : Fin 100000) (q : Fin 128)
    (C : Mat 100000 256) (hlo : ∀ k : Fin 128, C (ix2 r (lo k)) = A (ix2 r k))
    (hhi : ∀ k : Fin 128, C (ix2 r (hi k)) = Ideal.div (S (ix2 r k)) (max (deg (ix1 r)) one32)) :
    (∑ k : Fin 256, C (ix2 r k) * W (ix2 k q)) + b (ix1 q) = outAt A S deg W b r q := by
  unfold outAt
  rw [sum_halves]
  simp only [hlo, hhi]

end Cert.Sage

end
-- ==== Proof.SageRef.lean ====
/-
  The reference program's result, read index by index, is the layer's value `Cert.Sage.out` of its arguments.

  The reference joins the destination features and the mean-aggregated messages side by side into a [100000,256]
  matrix, multiplies it by the stacked [256,128] weights and adds the bias broadcast down the rows. Column `k < 128`
  of the joined matrix is the destination feature `k`; column `128 + k` is the summed message `k` of the row
  divided by the row's clamped degree (the degree broadcast along the row). The summed messages and the degree are
  left as the stages that compute them.
-/
import proofs.«165143_j18932215840939_1_alg».proof.Proof.Gen.ReferenceIdeal.Read
import proofs.«165143_j18932215840939_1_alg».proof.Proof.SageSpec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

variable (x0 x1 : (⟨S100000x128, .f32⟩ : BufTy).Contents (Elt Ideal)) (x2 x3 : (⟨S640000, .i32⟩ : BufTy).Contents (Elt Ideal))
  (x4 : (⟨S256x128, .f32⟩ : BufTy).Contents (Elt Ideal)) (x5 : (⟨S128, .f32⟩ : BufTy).Contents (Elt Ideal))

/-- The first 128 columns of the joined matrix are the destination features. -/
theorem joined_lo (r : Fin 100000) (k : Fin 128) :
    val_main_v19 (F := Ideal) x0 x1 x2 x3 (ix2 r (Cert.Sage.lo k)) = x1 (ix2 r k) := by
  unfold val_main_v19
  exact concatenate_pair_apply_left 1 x1 _ concatenates_S100000x128_S100000x128_S100000x256_d1 (ix2 r (Cert.Sage.lo k)) rfl (ix2 r k)
    (fun b => by match b with | ⟨0, _⟩ => rfl | ⟨1, _⟩ => rfl)

/-- The mean-aggregated message: the row's summed message over the row's clamped degree. -/
theorem mean_apply (r : Fin 100000) (k : Fin 128) :
    val_main_v18 (F := Ideal) x0 x2 x3 (ix2 r k)
      = Ideal.div (val_main_v9 (F := Ideal) x0 x2 x3 (ix2 r k)) (max (val_main_v13 (F := Ideal) x3 (ix1 r)) Cert.Sage.one32) := by
  have e : idx_main_v16 (idx_main_v17 (ix2 r k)) = ix1 r := funext fun a => Fin.ext (by match a with | ⟨0, _⟩ => rfl)
  rw [val_main_v18_apply, val_main_v17_apply, val_main_v16_apply, val_main_v15_apply, val_main_v14_apply, val_main_cst_3_apply, e]
  rfl

/-- The last 128 columns of the joined matrix are the mean-aggregated messages. -/
theorem joined_hi (r : Fin 100000) (k : Fin 128) :
    val_main_v19 (F := Ideal) x0 x1 x2 x3 (ix2 r (Cert.Sage.hi k))
      = Ideal.div (val_main_v9 (F := Ideal) x0 x2 x3 (ix2 r k)) (max (val_main_v13 (F := Ideal) x3 (ix1 r)) Cert.Sage.one32) := by
  unfold val_main_v19
  refine (concatenate_pair_apply_right 1 x1 (val_main_v18 (F := Ideal) x0 x2 x3) concatenates_S100000x128_S100000x128_S100000x256_d1
    (ix2 r (Cert.Sage.hi k)) rfl rfl (ix2 r k) (fun b hb => ?_) ?_).trans (mean_apply x0 x2 x3 r k)
  · match b with
    | ⟨0, _⟩ => rfl
    | ⟨1, _⟩ => exact (hb rfl).elim
  · show k.val + 128 = 128 + k.val
    omega

/-- The reference's result is the layer's value of its arguments, the summed messages and the degree as the
    reference's own stages compute them. -/
theorem result_eq :
    val_main_v23 (F := Ideal) x0 x1 x2 x3 x4 x5
      = Cert.Sage.out x1 (val_main_v9 (F := Ideal) x0 x2 x3) (val_main_v13 (F := Ideal) x3) x4 x5 := by
  funext i
  obtain ⟨r, q, rfl⟩ : ∃ (r : Fin 100000) (q : Fin 128), i = ix2 r q := ⟨i 0, i 1, eq_ix2 i⟩
  have el : ∀ k : Fin 256, lidx_main_v20 (ix2 r q) k = ix2 r k := fun k => funext fun a => Fin.ext (by
    match a with | ⟨0, _⟩ => rfl | ⟨1, _⟩ => rfl)
  have er : ∀ k : Fin 256, ridx_main_v20 (ix2 r q) k = ix2 k q := fun k => funext fun a => Fin.ext (by
    match a with | ⟨0, _⟩ => rfl | ⟨1, _⟩ => rfl)
  have eb : idx_main_v21 (idx_main_v22 (ix2 r q)) = ix1 q := funext fun a => Fin.ext (by match a with | ⟨0, _⟩ => rfl)
  rw [Cert.Sage.out_ix2, val_main_v23_apply, val_main_v20_apply, val_main_v22_apply, val_main_v21_apply, eb]
  simp only [el, er]
  exact Cert.Sage.joined_form x1 (val_main_v9 (F := Ideal) x0 x2 x3) (val_main_v13 (F := Ideal) x3) x4 x5 r q
    (val_main_v19 (F := Ideal) x0 x1 x2 x3) (joined_lo x0 x1 x2 x3 r) (joined_hi x0 x1 x2 x3 r)

end Cert.ReferenceIdeal.RefValue

end
-- ==== Proof.SagePayload.lean ====
/-
  What the kernel body stores at row `p`, column `q` of its [5000,128] block, at the ideal values: the row of the
  first loaded block times the column of the first weight block, plus the row of the second loaded block times the
  column of the second weight block, plus entry `q` of the one-row bias block.

  The narrowing format changes are the identity on extended reals, the same-shape casts are the identity, each
  block product into the zero accumulator is the plain sum over the one contracted axis (re-indexed from the
  contraction shape's index to the axis coordinate), and the bias row is broadcast down the block's rows.
-/
import proofs.«165143_j18932215840939_1_alg».proof.Proof.Gen.KernelIdeal.Skeleton
import Idealize.ShloMosaic.PureOps.Ideal.Laws
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.TcCoe Idealize.ShloMosaic.ValueIdx

/-! ## The block product's operand indices -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000,128] by [128,128] block product into the zero accumulator, at row `p` and column `q`: the sum over the
    128 contracted coordinates of the row's entry times the column's entry. -/
theorem block_product {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The one-row bias block broadcast down the block's rows, at row `p` and column `q`, is its entry `q`. -/
theorem bias_row (v : FVec Ideal S1x128 .f32) (p : Fin 5000) (q : Fin 128) :
    broadcastTo S5000x128 v broadcasts_S1x128_S5000x128 (ix2 p q) = v (ix2 (0 : Fin 1) q) :=
  broadcastTo_apply v broadcasts_S1x128_S5000x128 (ix2 p q) (ix2 (0 : Fin 1) q) (fun a => by
    match a with
    | ⟨0, _⟩ => show 0 = if (1 : Nat) = 1 then 0 else p.val; rw [if_pos rfl]
    | ⟨1, _⟩ => show q.val = if (128 : Nat) = 1 then 0 else q.val; rw [if_neg (by decide)])

/-- The stored value at row `p`, column `q` of the block. -/
theorem stored_apply (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q)
      = (∑ k : Fin 128, x0 (ix2 p k) * x2 (ix2 k q) + ∑ k : Fin 128, x1 (ix2 p k) * x3 (ix2 k q)) + x4 (ix2 (0 : Fin 1) q) := by
  unfold k0_pay1
  simp only [shapeCast_self]
  rw [addf_apply, addf_apply, block_product, block_product, bias_row]
  rfl

end Cert.KernelIdeal.Body

end
-- ==== Proof.SageFound.lean ====
/-
  What the kernel's region finds in the four window arrays that the host operations before it write, and each of
  them read at an index.

  * The second operand: the summed messages (source rows gathered along the edges, scatter-added by destination)
    times the reciprocal of the clamped degree, the reciprocal computed per destination row and broadcast along the
    row. At row `r`, column `k` it is `summed[r,k] · (1 / max(degree[r], 1))`.
  * The third and fourth operands: rows 0‥127 and rows 128‥255 of the stacked weights.
  * The fifth operand: the bias as a one-row matrix.

  The gather and the two scatter-adds are not opened: `summed` and `degree` name their results.
-/
import proofs.«165143_j18932215840939_1_alg».proof.Proof.Gen.KernelIdeal.Frame
import proofs.«165143_j18932215840939_1_alg».proof.Proof.SageSpec
import Idealize.ShloMosaic.Lib.StableHlo.Run
import Idealize.ShloMosaic.PureOps.Ideal
import Idealize.ShloMosaic.Lib.Pipeline.Value
import Idealize.ShloMosaic.Lib.ValueIdx

noncomputable section

namespace Cert.KernelIdeal.Found

open Cert.KernelIdeal Cert.KernelIdeal.Gen Idealize.ShloMosaic Idealize.ShloMosaic.TcCoe Idealize.SL.Sem
open Idealize.ShloMosaic.StableHlo Idealize.ShloMosaic.ValueIdx

variable (x0 : (⟨S100000x128, .f32⟩ : BufTy).Contents (Elt Ideal)) (x2 x3 : (⟨S640000, .i32⟩ : BufTy).Contents (Elt Ideal))
  (x4 : (⟨S256x128, .f32⟩ : BufTy).Contents (Elt Ideal)) (x5 : (⟨S128, .f32⟩ : BufTy).Contents (Elt Ideal))

/-- The summed messages: the source features' rows gathered along the edges (a negative source index wrapped
    once, as the program spells it) and scatter-added into a zero array by destination index. -/
def summed : (⟨S100000x128, .f32⟩ : BufTy).Contents (Elt Ideal) :=
  Host.scatterAdd (F := Ideal) scatter_S100000x128_S640000x1_S640000x128_1_0_0_1
    (broadcastInDim S100000x128 ![] bcast_S_S100000x128 (constant (F := Ideal) S_ .f32 0x00000000#32))
    (broadcastInDim S640000x1 ![0] bcast_S640000_S640000x1_0 x3)
    (Host.gather gather_S100000x128_S640000x1_S640000x128_1_0_n_n_0_1_1128 x0
      (broadcastInDim S640000x1 ![0] bcast_S640000_S640000x1_0
        (select (cmpi .slt x2 (broadcastInDim S640000 ![] bcast_S_S640000 (constantI S_ 32 0#32)))
          (addi x2 (broadcastInDim S640000 ![] bcast_S_S640000 (constantI S_ 32 100000#32))) x2)))

/-- The degree: ones scatter-added into a zero vector by destination index. -/
def degree : (⟨S100000, .f32⟩ : BufTy).Contents (Elt Ideal) :=
  Host.scatterAdd (F := Ideal) scatter_S100000_S640000x1_S640000_n_0_0_1
    (broadcastInDim S100000 ![] bcast_S_S100000 (constant (F := Ideal) S_ .f32 0x00000000#32))
    (broadcastInDim S640000x1 ![0] bcast_S640000_S640000x1_0 x3)
    (broadcastInDim S640000 ![] bcast_S_S640000 (constant (F := Ideal) S_ .f32 0x3F800000#32))

/-- The vector of ones, one per destination row. -/
def ones : (⟨S100000, .f32⟩ : BufTy).Contents (Elt Ideal) :=
  broadcastInDim S100000 ![] bcast_S_S100000 (constant (F := Ideal) S_ .f32 0x3F800000#32)

/-- One over the degree clamped below at one, per destination row. -/
def recip : (⟨S100000, .f32⟩ : BufTy).Contents (Elt Ideal) :=
  Host.divf (F := Ideal) (φ := .f32) ones (maximumf (F := Ideal) (φ := .f32) (degree x3) ones)

/-- The summed messages scaled by the row's reciprocal. -/
def scaled : (⟨S100000x128, .f32⟩ : BufTy).Contents (Elt Ideal) :=
  mulf (F := Ideal) (φ := .f32) (summed x0 x2 x3)
    (broadcastInDim S100000x128 ![0, 1] bcast_S100000x1_S100000x128_0_1
      (broadcastInDim S100000x1 ![0] bcast_S100000_S100000x1_0 (recip x3)))

/-! ## Read at an index -/

/-- Every entry of the vector of ones is the word of `1.0`. -/
theorem ones_apply (i : S100000.Idx) : ones i = Cert.Sage.one32 :=
  (broadcastInDim_apply _ bcast_S_S100000 _ i (fun a => a.elim0) (fun a => a.elim0)).trans (constant_apply _ _)

/-- The reciprocal at row `r`: one over the row's clamped degree. -/
theorem recip_apply (r : Fin 100000) :
    recip x3 (ix1 r) = Ideal.div Cert.Sage.one32 (max (degree x3 (ix1 r)) Cert.Sage.one32) := by
  unfold recip
  simp only [Host.divf, maximumf, Ideal.hostDivf_def, Ideal.maximumf_def, ones_apply]

/-- The scaled messages at row `r`, column `k`. -/
theorem scaled_apply (r : Fin 100000) (k : Fin 128) :
    scaled x0 x2 x3 (ix2 r k)
      = summed x0 x2 x3 (ix2 r k) * Ideal.div Cert.Sage.one32 (max (degree x3 (ix1 r)) Cert.Sage.one32) := by
  unfold scaled
  rw [mulf_apply]
  refine congrArg (summed x0 x2 x3 (ix2 r k) * ·) ?_
  refine (broadcastInDim_apply _ bcast_S100000x1_S100000x128_0_1 _ (ix2 r k) (ix2 r (0 : Fin 1)) (fun a => ?_)).trans ?_
  · match a with
    | ⟨0, _⟩ => show r.val = if (100000 : Nat) = 1 then 0 else r.val; rw [if_neg (by decide)]
    | ⟨1, _⟩ => show 0 = if (1 : Nat) = 1 then 0 else k.val; rw [if_pos rfl]
  refine (broadcastInDim_apply _ bcast_S100000_S100000x1_0 _ (ix2 r (0 : Fin 1)) (ix1 r) (fun a => ?_)).trans ?_
  · match a with
    | ⟨0, _⟩ => show r.val = if (100000 : Nat) = 1 then 0 else r.val; rw [if_neg (by decide)]
  exact recip_apply x3 r

/-- Row `k` of the upper weight block is row `k` of the stacked weights. -/
theorem upper_apply (k q : Fin 128) :
    extractStridedSlice S128x128 ![0, 0] x4 slices_S256x128_S128x128_0_0 (ix2 k q) = x4 (ix2 (Cert.Sage.lo k) q) :=
  extractStridedSlice_apply _ x4 _ (ix2 k q) (ix2 (Cert.Sage.lo k) q) (fun a => by
    match a with
    | ⟨0, _⟩ => show k.val = 0 + k.val; omega
    | ⟨1, _⟩ => show q.val = 0 + q.val; omega)

/-- Row `k` of the lower weight block is row `128 + k` of the stacked weights. -/
theorem lower_apply (k q : Fin 128) :
    extractStridedSlice S128x128 ![128, 0] x4 slices_S256x128_S128x128_128_0 (ix2 k q) = x4 (ix2 (Cert.Sage.hi k) q) :=
  extractStridedSlice_apply _ x4 _ (ix2 k q) (ix2 (Cert.Sage.hi k) q) (fun a => by
    match a with
    | ⟨0, _⟩ => show 128 + k.val = 128 + k.val; rfl
    | ⟨1, _⟩ => show q.val = 0 + q.val; omega)

/-- Entry `q` of the one-row bias matrix is entry `q` of the bias. -/
theorem biasrow_apply (q : Fin 128) :
    shapeCast S1x128 x5 shapeCasts_S128_S1x128 (ix2 (0 : Fin 1) q) = x5 (ix1 q) :=
  (shapeCast_addUnit_apply ![128] x5 shapeCasts_S128_S1x128 (ix2 (0 : Fin 1) q)).trans
    (congrArg x5 (funext fun a => by match a with | ⟨0, _⟩ => rfl))

/-! ## The arrays as the region finds them -/

variable (m : (ℓ : Loc nD τ sig) → Buf (Elt Ideal) ℓ)

set_option maxHeartbeats 2000000 in
/-- The second window's array holds the scaled messages of the argument arrays. -/
theorem found_scaled (c : Dev nD) :
    (V m c main_v20 : S100000x128.Idx → EReal)
      = scaled (m ((c : Thread nD τ).loc main_arg0)) (m ((c : Thread nD τ).loc main_arg2)) (m ((c : Thread nD τ).loc main_arg3)) := by
  dsimp only [Gen.V, Gen.hostOps0]
  after_results <;> rfl

set_option maxHeartbeats 2000000 in
/-- The third window's array holds the upper half of the stacked weights. -/
theorem found_upper (c : Dev nD) :
    (V m c main_v21 : S128x128.Idx → EReal)
      = extractStridedSlice S128x128 ![0, 0] (m ((c : Thread nD τ).loc main_arg4)) slices_S256x128_S128x128_0_0 := by
  dsimp only [Gen.V, Gen.hostOps0]
  after_results <;> rfl

set_option maxHeartbeats 2000000 in
/-- The fourth window's array holds the lower half of the stacked weights. -/
theorem found_lower (c : Dev nD) :
    (V m c main_v22 : S128x128.Idx → EReal)
      = extractStridedSlice S128x128 ![128, 0] (m ((c : Thread nD τ).loc main_arg4)) slices_S256x128_S128x128_128_0 := by
  dsimp only [Gen.V, Gen.hostOps0]
  after_results <;> rfl

set_option maxHeartbeats 2000000 in
/-- The fifth window's array holds the bias as a one-row matrix. -/
theorem found_biasrow (c : Dev nD) :
    (V m c main_v23 : S1x128.Idx → EReal)
      = shapeCast S1x128 (m ((c : Thread nD τ).loc main_arg5)) shapeCasts_S128_S1x128 := by
  dsimp only [Gen.V, Gen.hostOps0]
  after_results <;> rfl

end Cert.KernelIdeal.Found

end
-- ==== Proof.SageKernel.lean ====
/-
  The kernel's result array after its run is the layer's value `Cert.Sage.out` of the argument arrays.

  The grid has 20 points. Point `t` stages rows `5000·t … 5000·t + 4999` of the destination features and of the
  scaled messages, the two whole weight halves and the whole bias row, and writes back rows `5000·t …` of the
  result. So row `p` of point `t`'s block is row `5000·t + p` of each row-blocked array; what the body stores at
  (p, q) is the layer's value at (5000·t + p, q) in its reciprocal spelling; and the 20 blocks of 5000 rows tile
  the 100000 rows, so every index lies in the block of point `row / 5000`.
-/
import proofs.«165143_j18932215840939_1_alg».proof.Proof.Gen.KernelIdeal.Value
import proofs.«165143_j18932215840939_1_alg».proof.Proof.SageSpec
import proofs.«165143_j18932215840939_1_alg».proof.Proof.SagePayload
import proofs.«165143_j18932215840939_1_alg».proof.Proof.SageFound
import Idealize.ShloMosaic.Lib.Pipeline.Value
import Idealize.ShloMosaic.Lib.ValueIdx

noncomputable section

namespace Cert.KernelIdeal.Whole

open Cert.KernelIdeal Cert.KernelIdeal.Gen Cert.KernelIdeal.Value Cert.KernelIdeal.Found
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The layer's value of the argument arrays on core `c`. -/
def result (c : Dev nD) : S100000x128.Idx → EReal :=
  Cert.Sage.out (m ((c : Thread nD τ).loc main_arg1))
    (summed (m ((c : Thread nD τ).loc main_arg0)) (m ((c : Thread nD τ).loc main_arg2)) (m ((c : Thread nD τ).loc main_arg3)))
    (degree (m ((c : Thread nD τ).loc main_arg3)))
    (m ((c : Thread nD τ).loc main_arg4)) (m ((c : Thread nD τ).loc main_arg5))

theorem hz : (![0, 0] : Fin 2 → Nat) = fun _ => 0 := funext fun a => by fin_cases a <;> rfl

/-- The printed index maps, decided over the 20 points: the three row-blocked windows are at block (t, 0), the three
    whole-array windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The input blocks at a point, read at an index -/

/-- Row `p` of the destination features' block at point `t` is row `5000·t + p` of the argument. -/
theorem feat_blk (c : Dev nD) (t : Fin cfg0.N) (p : Fin 5000) (k : Fin 128) (r : Fin 100000) (hr : r.val = t.val * 5000 + p.val) :
    (iblk m c 0 t : Vec Ideal S5000x128 .f32) (ix2 p k) = (m ((c : Thread nD τ).loc main_arg1) : S100000x128.Idx → EReal) (ix2 r k) := by
  obtain ⟨e0, e1, -⟩ := idx_facts t
  unfold iblk
  rw [View.read_apply]
  show V m c main_arg1 (((cfg0.win 0).blk t).view.emb (ix2 p k)) = _
  rw [V_main_arg1]
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Row `p` of the scaled messages' block at point `t` is row `5000·t + p` of the scaled messages. -/
theorem scaled_blk (c : Dev nD) (t : Fin cfg0.N) (p : Fin 5000) (k : Fin 128) (r : Fin 100000) (hr : r.val = t.val * 5000 + p.val) :
    (iblk m c 1 t : Vec Ideal S5000x128 .f32) (ix2 p k)
      = summed (m ((c : Thread nD τ).loc main_arg0)) (m ((c : Thread nD τ).loc main_arg2)) (m ((c : Thread nD τ).loc main_arg3)) (ix2 r k)
        * Ideal.div Cert.Sage.one32 (max (degree (m ((c : Thread nD τ).loc main_arg3)) (ix1 r)) Cert.Sage.one32) := by
  obtain ⟨-, -, e0, e1, -⟩ := idx_facts t
  unfold iblk
  rw [View.read_apply]
  show (V m c main_v20 : S100000x128.Idx → EReal) (((cfg0.win 1).blk t).view.emb (ix2 p k)) = _
  rw [found_scaled, ← scaled_apply]
  refine congrArg _ (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- The upper weight block at any point, at (k, q), is the stacked weights at (k, q). -/
theorem upper_blk (c : Dev nD) (t : Fin cfg0.N) (k q : Fin 128) :
    (iblk m c 2 t : Vec Ideal S128x128 .f32) (ix2 k q) = (m ((c : Thread nD τ).loc main_arg4) : S256x128.Idx → EReal) (ix2 (Cert.Sage.lo k) q) := by
  obtain ⟨-, -, -, -, e0, e1, -⟩ := idx_facts t
  unfold iblk
  rw [View.read_apply]
  show (V m c main_v21 : S128x128.Idx → EReal) (((cfg0.win 2).blk t).view.emb (ix2 k q)) = _
  rw [found_upper, ← upper_apply (m ((c : Thread nD τ).loc main_arg4)) k q]
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The lower weight block at any point, at (k, q), is the stacked weights at (128 + k, q). -/
theorem lower_blk (c : Dev nD) (t : Fin cfg0.N) (k q : Fin 128) :
    (iblk m c 3 t : Vec Ideal S128x128 .f32) (ix2 k q) = (m ((c : Thread nD τ).loc main_arg4) : S256x128.Idx → EReal) (ix2 (Cert.Sage.hi k) q) := by
  obtain ⟨-, -, -, -, -, -, e0, e1, -⟩ := idx_facts t
  unfold iblk
  rw [View.read_apply]
  show (V m c main_v22 : S128x128.Idx → EReal) (((cfg0.win 3).blk t).view.emb (ix2 k q)) = _
  rw [found_lower, ← lower_apply (m ((c : Thread nD τ).loc main_arg4)) k q]
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The bias row's block at any point, at (0, q), is the bias at `q`. -/
theorem bias_blk (c : Dev nD) (t : Fin cfg0.N) (q : Fin 128) :
    (iblk m c 4 t : Vec Ideal S1x128 .f32) (ix2 (0 : Fin 1) q) = (m ((c : Thread nD τ).loc main_arg5) : S128.Idx → EReal) (ix1 q) := by
  obtain ⟨-, -, -, -, -, -, -, -, e0, e1, -⟩ := idx_facts t
  unfold iblk
  rw [View.read_apply]
  show (V m c main_v23 : S1x128.Idx → EReal) (((cfg0.win 4).blk t).view.emb (ix2 (0 : Fin 1) q)) = _
  rw [found_biasrow, ← biasrow_apply (m ((c : Thread nD τ).loc main_arg5)) q]
  refine congrArg _ (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-! ## What a point writes back -/

/-- What point `t` writes back is block `t` of the layer's value. -/
theorem flushed_eq (c : Dev nD) (t : Fin cfg0.N) :
    (dats m 0 c).flushed 5 t = ((cfg0.win 5).blk t).view.read (Elt Ideal) (result m c) := by
  rw [flushed5]
  unfold out0_5
  rw [View.canon_unit_zero hz]
  simp only [View.ld_unit_zero (S := S5000x128) hz, View.ld_unit_zero (S := S128x128) hz, View.ld_unit_zero (S := S1x128) hz]
  have hN : t.val < 20 := by have h := t.isLt; have e : cfg0.N = 20 := N_0; omega
  obtain ⟨-, -, -, -, -, -, -, -, -, -, e0, e1⟩ := idx_facts t
  show (fun j : S5000x128.Idx => k0_pay1 (F := Ideal) (iblk m c 0 t) (iblk m c 1 t) (iblk m c 2 t) (iblk m c 3 t) (iblk m c 4 t) j)
    = fun j : S5000x128.Idx => result m c (((cfg0.win 5).blk t).view.emb j)
  funext j
  obtain ⟨p, q, rfl⟩ : ∃ (p : Fin 5000) (q : Fin 128), j = ix2 p q := ⟨j 0, j 1, eq_ix2 j⟩
  have hp : p.val < 5000 := p.isLt
  obtain ⟨r, hr⟩ : ∃ r : Fin 100000, r.val = t.val * 5000 + p.val := ⟨⟨t.val * 5000 + p.val, by omega⟩, rfl⟩
  have hemb : ((cfg0.win 5).blk t).view.emb (ix2 p q) = ix2 r q := funext fun a => Fin.ext (by
    match a with
    | ⟨0, _⟩ => show win0_5.index t (0 : Fin 2) * 5000 + 1 * p.val = r.val; omega
    | ⟨1, _⟩ => show win0_5.index t (1 : Fin 2) * 128 + 1 * q.val = q.val; omega)
  show k0_pay1 (F := Ideal) (iblk m c 0 t) (iblk m c 1 t) (iblk m c 2 t) (iblk m c 3 t) (iblk m c 4 t) (ix2 p q) = result m c (((cfg0.win 5).blk t).view.emb (ix2 p q))
  rw [hemb]
  refine (Cert.KernelIdeal.Body.stored_apply (iblk m c 0 t) (iblk m c 1 t) (iblk m c 2 t) (iblk m c 3 t) (iblk m c 4 t) p q).trans ?_
  simp only [feat_blk m c t p _ r hr, scaled_blk m c t p _ r hr, upper_blk m c t, lower_blk m c t, bias_blk m c t]
  exact Cert.Sage.recip_form _ _ _ _ _ r q

/-! ## The blocks tile the array -/

/-- An index is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- Every index of the result array lies in the block of the point `row / 5000`. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ : ∃ t : Fin cfg0.N, t.val = (i 0).val / 5000 := ⟨⟨(i 0).val / 5000, by have e : cfg0.N = 20 := N_0; omega⟩, rfl⟩
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The result array after the run is the layer's value. -/
theorem final (c : Dev nD) : (dats m 0 c).arrAt 5 cfg0.N = result m c :=
  (dats m 0 c).arrAt_eq_of_cover 5 (result m c) (fun t _ => flushed_eq m c t) cover

/-- The run, read: the result array at the layer's value of the argument arrays, the arguments unchanged. -/
theorem run : θ_run defs (onTc (τ := τ) (main (F := Ideal))) ⟨m, fun _ => 0, ρ⟩ fun r => ∀ c : Dev nD,
      r.2.mem ((c : Thread nD τ).loc main_v24) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Whole

end
-- ==== Proof.lean ====
/-
  Two programs for one graph-convolution layer with mean aggregation agree on the extended reals.

  Both gather the source features along the edges, scatter-add them by destination into the summed messages
  `S`, scatter-add ones into the degree `deg`, and clamp the degree below at one. From there:

  * the kernel program multiplies `S[r,k]` by the reciprocal `1 / max(deg[r], 1)`, cuts the stacked [256,128]
    weights `W` into an upper and a lower half, and for each block of 5000 destination rows computes
    `A·W_upper + (scaled S)·W_lower + b` (the format narrowing before the two products is the identity on
    extended reals, and each product starts from a zero accumulator);
  * the reference divides `S[r,k]` by `max(deg[r], 1)`, joins the destination features `A` and the quotient
    side by side, multiplies the joined [100000,256] matrix by `W` and adds `b`.

  At every index both are
      ( ∑_k A[r,k] · W[k,q]  +  ∑_k (S[r,k] / max(deg[r], 1)) · W[128+k,q] )  +  b[q]:
  `x · (1 / y) = x / y` for `y ≠ 0` because the quotient is the product with the inverse, `max(deg, 1) ≥ 1` is not
  zero, and a sum over 256 terms splits into its two halves. No finiteness of any input is used.

  The three frames are the generated ones (the reference's is its generated run with the result dropped); the
  idealization rewrote nothing, so there is nothing to preserve.
-/
import proofs.«165143_j18932215840939_1_alg».proof.Defs
import proofs.«165143_j18932215840939_1_alg».proof.Proof.Gen.Kernel
import proofs.«165143_j18932215840939_1_alg».proof.Proof.Gen.Kernel.Skeleton
import proofs.«165143_j18932215840939_1_alg».proof.Proof.Gen.Kernel.Launch
import proofs.«165143_j18932215840939_1_alg».proof.Proof.Gen.Kernel.Points
import proofs.«165143_j18932215840939_1_alg».proof.Proof.Gen.Kernel.Frame
import proofs.«165143_j18932215840939_1_alg».proof.Proof.Gen.KernelIdeal
import proofs.«165143_j18932215840939_1_alg».proof.Proof.Gen.KernelIdeal.Skeleton
import proofs.«165143_j18932215840939_1_alg».proof.Proof.Gen.KernelIdeal.Launch
import proofs.«165143_j18932215840939_1_alg».proof.Proof.Gen.KernelIdeal.Points
import proofs.«165143_j18932215840939_1_alg».proof.Proof.Gen.KernelIdeal.Frame
import proofs.«165143_j18932215840939_1_alg».proof.Proof.Gen.ReferenceIdeal
import proofs.«165143_j18932215840939_1_alg».proof.Proof.Gen.Pre_finite_inputs
import proofs.«165143_j18932215840939_1_alg».proof.Proof.Gen.KernelIdeal.Value
import proofs.«165143_j18932215840939_1_alg».proof.Proof.Gen.ReferenceIdeal.Run
import proofs.«165143_j18932215840939_1_alg».proof.Proof.Gen.ReferenceIdeal.Read
import proofs.«165143_j18932215840939_1_alg».proof.Proof.SageSpec
import proofs.«165143_j18932215840939_1_alg».proof.Proof.SageRef
import proofs.«165143_j18932215840939_1_alg».proof.Proof.SageKernel
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The reference's result is the layer's value of its arguments, with the summed messages and the degree named
    as on the kernel's side: the two programs compute them by the same gather and scatter-adds. -/
theorem reference_result
    (x0 x1 : (⟨Cert.ReferenceIdeal.S100000x128, .f32⟩ : BufTy).Contents (Elt Ideal))
    (x2 x3 : (⟨Cert.ReferenceIdeal.S640000, .i32⟩ : BufTy).Contents (Elt Ideal))
    (x4 : (⟨Cert.ReferenceIdeal.S256x128, .f32⟩ : BufTy).Contents (Elt Ideal))
    (x5 : (⟨Cert.ReferenceIdeal.S128, .f32⟩ : BufTy).Contents (Elt Ideal)) :
    Cert.ReferenceIdeal.Read.val_main_v23 (F := Ideal) x0 x1 x2 x3 x4 x5
      = Cert.Sage.out x1 (Cert.KernelIdeal.Found.summed x0 x2 x3) (Cert.KernelIdeal.Found.degree x3) x4 x5 :=
  Cert.ReferenceIdeal.RefValue.result_eq x0 x1 x2 x3 x4 x5

/-- From memories that agree on the arguments, the kernel program's result array and the reference's both end at
    the layer's value of the arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [h0, h1, h2, h3, h4, h5]
  exact reference_result _ _ _ _ _ _

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
